-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 125
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1700000, .i32⟩
  | .hbm, ⟨18, _⟩ => ⟨S1700000, .i1⟩
  | .hbm, ⟨19, _⟩ => ⟨S_, .i32⟩
  | .hbm, ⟨20, _⟩ => ⟨S1700000, .i32⟩
  | .hbm, ⟨21, _⟩ => ⟨S1700000, .i32⟩
  | .hbm, ⟨22, _⟩ => ⟨S1700000, .i32⟩
  | .hbm, ⟨23, _⟩ => ⟨S1700000x1, .i32⟩
  | .hbm, ⟨24, _⟩ => ⟨S_, .f32⟩
  | .hbm, ⟨25, _⟩ => ⟨S1700000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S100000, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S_, .f32⟩
  | .hbm, ⟨84, _⟩ => ⟨S1700000, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S1700000x1, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x32, .f32⟩
  | .hbm, ⟨116, _⟩ => ⟨S1700000x32, .f32⟩
  | .hbm, ⟨117, _⟩ => ⟨S1700000x32, .f32⟩
  | .hbm, ⟨118, _⟩ => ⟨S_, .f32⟩
  | .hbm, ⟨119, _⟩ => ⟨S100000x32, .f32⟩
  | .hbm, ⟨120, _⟩ => ⟨S1700000x1, .i32⟩
  | .hbm, ⟨121, _⟩ => ⟨S100000x32, .f32⟩
  | .hbm, ⟨122, _⟩ => ⟨S1x32, .f32⟩
  | .hbm, ⟨123, _⟩ => ⟨S100000x32, .f32⟩
  | .hbm, ⟨124, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_17 : Ref sig .tc := ⟨.hbm, 107, rfl⟩
abbrev main_v80 : Ref sig .tc := ⟨.hbm, 108, rfl⟩
abbrev main_v81 : Ref sig .tc := ⟨.hbm, 109, rfl⟩
abbrev main_c_18 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_19 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1700000, .i32⟩
  | .hbm, ⟨18, _⟩ => ⟨S1700000, .i1⟩
  | .hbm, ⟨19, _⟩ => ⟨S_, .i32⟩
  | .hbm, ⟨20, _⟩ => ⟨S1700000, .i32⟩
  | .hbm, ⟨21, _⟩ => ⟨S1700000, .i32⟩
  | .hbm, ⟨22, _⟩ => ⟨S1700000, .i32⟩
  | .hbm, ⟨23, _⟩ => ⟨S1700000x1, .i32⟩
  | .hbm, ⟨24, _⟩ => ⟨S_, .f32⟩
  | .hbm, ⟨25, _⟩ => ⟨S1700000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S100000, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S_, .f32⟩
  | .hbm, ⟨84, _⟩ => ⟨S1700000, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S1700000x1, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x32, .f32⟩
  | .hbm, ⟨116, _⟩ => ⟨S1700000x32, .f32⟩
  | .hbm, ⟨117, _⟩ => ⟨S1700000x32, .f32⟩
  | .hbm, ⟨118, _⟩ => ⟨S_, .f32⟩
  | .hbm, ⟨119, _⟩ => ⟨S100000x32, .f32⟩
  | .hbm, ⟨120, _⟩ => ⟨S1700000x1, .i32⟩
  | .hbm, ⟨121, _⟩ => ⟨S100000x32, .f32⟩
  | .hbm, ⟨122, _⟩ => ⟨S1x32, .f32⟩
  | .hbm, ⟨123, _⟩ => ⟨S100000x32, .f32⟩
  | .hbm, ⟨124, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_17 : Ref sig .tc := ⟨.hbm, 107, rfl⟩
abbrev main_v80 : Ref sig .tc := ⟨.hbm, 108, rfl⟩
abbrev main_v81 : Ref sig .tc := ⟨.hbm, 109, rfl⟩
abbrev main_c_18 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_19 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.GcnSpec.lean ====
/-
  One graph-convolution layer after its dense transform, as a function of the transformed features.

  The edge list `e` has two rows of 1,600,000 node numbers: row 0 the edges' sources, row 1 their targets
  (`edgeRow0`, `edgeRow1`).  Every node also gets a self loop, so the list of sources and the list of targets are the
  row followed by 0, 1, …, 99,999: 1,700,000 entries each (`withLoops`).  A node number is used as a row number with
  the usual convention for negative ones: a negative one has 100,000 added first (`wrap`).

  `deg d` counts, for every node, the entries of the target list `d` that name it (a scatter-add of ones), `dinv` is
  its reciprocal square root, and entry `k` carries the coefficient `dinv[s k] · dinv[d k]` (`coef`).  The layer's
  output row `n` is the sum over the entries `k` with `d k = n` of `coef k · h[s k]`, plus the bias (`aggregate64` for
  64 features, `aggregate32` for 32; `layer64`, `layer32` from the edge rows), and between the two layers sits
  `max(·, 0)` (`relu64`).

  Nothing here depends on how the transformed features `h` were computed: a program that multiplies block by block
  and one that multiplies the whole array feed the same functions.
-/
import proofs.«177057_j44976897524562_1_alg».proof.KernelIdeal

noncomputable section

namespace Cert.Gcn

open Idealize.ShloMosaic Cert.KernelIdeal

variable {F : FTy → Type} [FloatOps F]

-- the layout side conditions the printed program states (its `Facts`): every function below takes their witnesses
variable [Facts]
open Facts₀ Facts

/-- Row 0 of the edge list: the sources. -/
def edgeRow0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the targets. -/
def edgeRow1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A row of the edge list followed by the self loops' `0 … 99,999`. -/
def withLoops (r : (⟨S1600000, .i32⟩ : BufTy).Contents (Elt F)) : (⟨S1700000, .i32⟩ : BufTy).Contents (Elt F) :=
  concatenate S1700000 0 [⟨S1600000, r⟩, ⟨S100000, iotaInDim S100000 32 0⟩] concatenates_S1600000_S100000_S1700000_d0

/-- A node number as a row number: a negative one has the node count added; laid out as a column of start indices. -/
def wrap (i : (⟨S1700000, .i32⟩ : BufTy).Contents (Elt F)) : (⟨S1700000x1, .i32⟩ : BufTy).Contents (Elt F) :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- How many entries of the target list name each node. -/
def deg (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (wrap d)
    (broadcastInDim S1700000 ![] bcast_S_S1700000 (constant S_ .f32 0x3F800000#32))

/-- The reciprocal square root of the degree. -/
def dinv (d : (⟨S1700000, .i32⟩ : BufTy).Contents (Elt F)) : (⟨S100000, .f32⟩ : BufTy).Contents (Elt F) :=
  Host.rsqrt (deg d)

/-- Entry `k`'s coefficient `dinv[s k] · dinv[d k]`, as a column. -/
def coef (s d : (⟨S1700000, .i32⟩ : BufTy).Contents (Elt F)) : (⟨S1700000x1, .f32⟩ : BufTy).Contents (Elt F) :=
  broadcastInDim S1700000x1 ![0] bcast_S1700000_S1700000x1_0
    (mulf (Host.gather gather_S100000_S1700000x1_S1700000_n_0_n_n_0_1_1 (dinv d) (wrap s))
      (Host.gather gather_S100000_S1700000x1_S1700000_n_0_n_n_0_1_1 (dinv d) (wrap d)))

/-- On 64 features: row `n` is the sum over the entries `k` with `d k = n` of `coef k · h[s k]`, plus the bias. -/
def aggregate64 (h : (⟨S100000x64, .f32⟩ : BufTy).Contents (Elt F)) (s d : (⟨S1700000, .i32⟩ : BufTy).Contents (Elt F))
    (b : (⟨S64, .f32⟩ : BufTy).Contents (Elt F)) : (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 d)
      (mulf (Host.gather gather_S100000x64_S1700000x1_S1700000x64_1_0_n_n_0_1_164 h (wrap s))
        (broadcastInDim S1700000x64 ![0, 1] bcast_S1700000x1_S1700000x64_0_1 (coef s d))))
    (broadcastInDim S100000x64 ![0, 1] bcast_S1x64_S100000x64_0_1 (broadcastInDim S1x64 ![1] bcast_S64_S1x64_1 b))

/-- The first layer from the edge rows. -/
def layer64 (h : (⟨S100000x64, .f32⟩ : BufTy).Contents (Elt F)) (r0 r1 : (⟨S1600000, .i32⟩ : BufTy).Contents (Elt F))
    (b : (⟨S64, .f32⟩ : BufTy).Contents (Elt F)) : (⟨S100000x64, .f32⟩ : BufTy).Contents (Elt F) :=
  aggregate64 h (withLoops r0) (withLoops r1) b

/-- `max(·, 0)` on the hidden features. -/
def relu64 (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- On 32 features. -/
def aggregate32 (h : (⟨S100000x32, .f32⟩ : BufTy).Contents (Elt F)) (s d : (⟨S1700000, .i32⟩ : BufTy).Contents (Elt F))
    (b : (⟨S32, .f32⟩ : BufTy).Contents (Elt F)) : (⟨S100000x32, .f32⟩ : BufTy).Contents (Elt F) :=
  addf
    (Host.scatterAdd scatter_S100000x32_S1700000x1_S1700000x32_1_0_0_1
      (broadcastInDim S100000x32 ![] bcast_S_S100000x32 (constant S_ .f32 0x00000000#32))
      (broadcastInDim S1700000x1 ![0] bcast_S1700000_S1700000x1_0 d)
      (mulf (Host.gather gather_S100000x32_S1700000x1_S1700000x32_1_0_n_n_0_1_132 h (wrap s))
        (broadcastInDim S1700000x32 ![0, 1] bcast_S1700000x1_S1700000x32_0_1 (coef s d))))
    (broadcastInDim S100000x32 ![0, 1] bcast_S1x32_S100000x32_0_1 (broadcastInDim S1x32 ![1] bcast_S32_S1x32_1 b))

/-- The second layer from the edge rows. -/
def layer32 (h : (⟨S100000x32, .f32⟩ : BufTy).Contents (Elt F)) (r0 r1 : (⟨S1600000, .i32⟩ : BufTy).Contents (Elt F))
    (b : (⟨S32, .f32⟩ : BufTy).Contents (Elt F)) : (⟨S100000x32, .f32⟩ : BufTy).Contents (Elt F) :=
  aggregate32 h (withLoops r0) (withLoops r1) b

end Cert.Gcn

end
-- ==== Proof.HostChain.lean ====
/-
  The host side of the idealized kernel, stretch by stretch.

  Before the first pallas_call the host cuts the edge list into its two rows.  Between the two pallas_calls it applies
  the first layer's aggregation to the first transform's output, then `max(·, 0)`.  After the second it applies the
  second layer's aggregation to the second transform's output.  Each stretch is read here as ONE function of the
  buffers it reads, for any contents at its entry; the buffers a stretch (or a pallas_call) does not write are carried
  across it unchanged, which is how the edge rows cut at the start, and the argument arrays, reach the later stretches.
-/
import proofs.«177057_j44976897524562_1_alg».proof.Proof.Gen.KernelIdeal.Frame
import proofs.«177057_j44976897524562_1_alg».proof.Proof.GcnSpec
import Idealize.ShloMosaic.Lib.StableHlo.Run

set_option maxRecDepth 16384

noncomputable section

namespace Cert.KernelIdeal.Chain

open Cert.KernelIdeal Cert.KernelIdeal.Gen Cert.Gcn
open Idealize.ShloMosaic Idealize.ShloMosaic.TcCoe Idealize.SL.Sem Idealize.ShloMosaic.StableHlo

variable {F : FTy → Type} [FloatOps F]

/-! ## Each stretch as one function of what it reads -/

theorem stretch0_row0 (V : Valuation τ sig (Elt F)) :
    StableHlo.after hostOps0 V (Proc.devRef .tc main_v1) = edgeRow0 (V (Proc.devRef .tc main_arg1)) := by
  dsimp only [hostOps0]; after_results; rfl

theorem stretch0_row1 (V : Valuation τ sig (Elt F)) :
    StableHlo.after hostOps0 V (Proc.devRef .tc main_v3) = edgeRow1 (V (Proc.devRef .tc main_arg1)) := by
  dsimp only [hostOps0]; after_results; rfl

set_option maxHeartbeats 40000000 in
/-- The first layer's aggregation, of the first transform's output, the two edge rows and the first bias. -/
theorem stretch1 (V : Valuation τ sig (Elt F)) :
    StableHlo.after hostOps1 V (Proc.devRef .tc main_v48)
      = layer64 (V (Proc.devRef .tc main_v4)) (V (Proc.devRef .tc main_v1)) (V (Proc.devRef .tc main_v3)) (V (Proc.devRef .tc main_arg3)) := by
  dsimp only [hostOps1]; after_results_simp; rfl

/-- `max(·, 0)` of the first layer's output. -/
theorem stretch1_relu (V : Valuation τ sig (Elt F)) :
    StableHlo.after hostOps1_1 V (Proc.devRef .tc main_v49) = relu64 (V (Proc.devRef .tc main_v48)) := by
  dsimp only [hostOps1_1]; after_results_simp; rfl

set_option maxHeartbeats 40000000 in
/-- The second layer's aggregation, of the second transform's output, the two edge rows and the second bias. -/
theorem stretch2 (V : Valuation τ sig (Elt F)) :
    StableHlo.after hostOps2 V (Proc.devRef .tc main_v94)
      = layer32 (V (Proc.devRef .tc main_v50)) (V (Proc.devRef .tc main_v1)) (V (Proc.devRef .tc main_v3)) (V (Proc.devRef .tc main_arg5)) := by
  dsimp only [hostOps2]; after_results_simp; rfl

/-! ## What is carried across a stretch it is not written in -/

/-- A buffer none of a stretch's operations writes keeps its contents: each operation writes one buffer, and it is
    another one. -/
local macro "not_written" : tactic => `(tactic|
  (refine StableHlo.after_of_forall_not_mem _ _ (List.forall_iff_forall_mem.mp ?_)
   simp only [hostOps0, hostOps1, hostOps1_1, hostOps2, List.flatten_cons, List.flatten_nil, List.append_nil, List.cons_append,
     List.nil_append, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

variable (m : (ℓ : Loc nD τ sig) → Buf (Elt F) ℓ) (ρ : Dev nD → PrngReg)

/-! ### At the first pallas_call's entry -/

theorem W1_row0 (c : Dev nD) : W1 m ρ c (Proc.devRef .tc main_v1) = edgeRow0 (m ((c : Thread nD τ).loc main_arg1)) :=
  stretch0_row0 (W0 m ρ c)
theorem W1_row1 (c : Dev nD) : W1 m ρ c (Proc.devRef .tc main_v3) = edgeRow1 (m ((c : Thread nD τ).loc main_arg1)) :=
  stretch0_row1 (W0 m ρ c)
theorem W1_arg0 (c : Dev nD) : W1 m ρ c (Proc.devRef .tc main_arg0) = m ((c : Thread nD τ).loc main_arg0) :=
  show StableHlo.after hostOps0 (W0 m ρ c) (Proc.devRef .tc main_arg0) = W0 m ρ c (Proc.devRef .tc main_arg0) by not_written
theorem W1_arg2 (c : Dev nD) : W1 m ρ c (Proc.devRef .tc main_arg2) = m ((c : Thread nD τ).loc main_arg2) :=
  show StableHlo.after hostOps0 (W0 m ρ c) (Proc.devRef .tc main_arg2) = W0 m ρ c (Proc.devRef .tc main_arg2) by not_written
theorem W1_arg3 (c : Dev nD) : W1 m ρ c (Proc.devRef .tc main_arg3) = m ((c : Thread nD τ).loc main_arg3) :=
  show StableHlo.after hostOps0 (W0 m ρ c) (Proc.devRef .tc main_arg3) = W0 m ρ c (Proc.devRef .tc main_arg3) by not_written
theorem W1_arg4 (c : Dev nD) : W1 m ρ c (Proc.devRef .tc main_arg4) = m ((c : Thread nD τ).loc main_arg4) :=
  show StableHlo.after hostOps0 (W0 m ρ c) (Proc.devRef .tc main_arg4) = W0 m ρ c (Proc.devRef .tc main_arg4) by not_written
theorem W1_arg5 (c : Dev nD) : W1 m ρ c (Proc.devRef .tc main_arg5) = m ((c : Thread nD τ).loc main_arg5) :=
  show StableHlo.after hostOps0 (W0 m ρ c) (Proc.devRef .tc main_arg5) = W0 m ρ c (Proc.devRef .tc main_arg5) by not_written

/-! ### At the first pallas_call's exit (it writes its own three arrays only) -/

theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_arg3 (c : Dev nD) : W2 m ρ c (Proc.devRef .tc main_arg3) = W1 m ρ c (Proc.devRef .tc main_arg3) :=
  W2_of_ne m ρ c main_arg3 (by decide)
theorem W2_arg4 (c : Dev nD) : W2 m ρ c (Proc.devRef .tc main_arg4) = W1 m ρ c (Proc.devRef .tc main_arg4) :=
  W2_of_ne m ρ c main_arg4 (by decide)
theorem W2_arg5 (c : Dev nD) : W2 m ρ c (Proc.devRef .tc main_arg5) = W1 m ρ c (Proc.devRef .tc main_arg5) :=
  W2_of_ne m ρ c main_arg5 (by decide)

/-! ### After the first layer's aggregation, and after `max(·, 0)` (the second pallas_call's entry) -/

theorem W3_v1 (c : Dev nD) : W3 m ρ c (Proc.devRef .tc main_v1) = W2 m ρ c (Proc.devRef .tc main_v1) :=
  show StableHlo.after hostOps1 (W2 m ρ c) (Proc.devRef .tc main_v1) = W2 m ρ c (Proc.devRef .tc main_v1) by not_written
theorem W4_v1 (c : Dev nD) : W4 m ρ c (Proc.devRef .tc main_v1) = W3 m ρ c (Proc.devRef .tc main_v1) :=
  show StableHlo.after hostOps1_1 (W3 m ρ c) (Proc.devRef .tc main_v1) = W3 m ρ c (Proc.devRef .tc main_v1) by not_written
theorem W3_v3 (c : Dev nD) : W3 m ρ c (Proc.devRef .tc main_v3) = W2 m ρ c (Proc.devRef .tc main_v3) :=
  show StableHlo.after hostOps1 (W2 m ρ c) (Proc.devRef .tc main_v3) = W2 m ρ c (Proc.devRef .tc main_v3) by not_written
theorem W4_v3 (c : Dev nD) : W4 m ρ c (Proc.devRef .tc main_v3) = W3 m ρ c (Proc.devRef .tc main_v3) :=
  show StableHlo.after hostOps1_1 (W3 m ρ c) (Proc.devRef .tc main_v3) = W3 m ρ c (Proc.devRef .tc main_v3) by not_written
theorem W3_arg4 (c : Dev nD) : W3 m ρ c (Proc.devRef .tc main_arg4) = W2 m ρ c (Proc.devRef .tc main_arg4) :=
  show StableHlo.after hostOps1 (W2 m ρ c) (Proc.devRef .tc main_arg4) = W2 m ρ c (Proc.devRef .tc main_arg4) by not_written
theorem W4_arg4 (c : Dev nD) : W4 m ρ c (Proc.devRef .tc main_arg4) = W3 m ρ c (Proc.devRef .tc main_arg4) :=
  show StableHlo.after hostOps1_1 (W3 m ρ c) (Proc.devRef .tc main_arg4) = W3 m ρ c (Proc.devRef .tc main_arg4) by not_written
theorem W3_arg5 (c : Dev nD) : W3 m ρ c (Proc.devRef .tc main_arg5) = W2 m ρ c (Proc.devRef .tc main_arg5) :=
  show StableHlo.after hostOps1 (W2 m ρ c) (Proc.devRef .tc main_arg5) = W2 m ρ c (Proc.devRef .tc main_arg5) by not_written
theorem W4_arg5 (c : Dev nD) : W4 m ρ c (Proc.devRef .tc main_arg5) = W3 m ρ c (Proc.devRef .tc main_arg5) :=
  show StableHlo.after hostOps1_1 (W3 m ρ c) (Proc.devRef .tc main_arg5) = W3 m ρ c (Proc.devRef .tc main_arg5) by not_written

/-! ### At the second pallas_call's exit -/

theorem W5_v1 (c : Dev nD) : W5 m ρ c (Proc.devRef .tc main_v1) = W4 m ρ c (Proc.devRef .tc main_v1) :=
  W5_of_ne m ρ c main_v1 (by decide)
theorem W5_v3 (c : Dev nD) : W5 m ρ c (Proc.devRef .tc main_v3) = W4 m ρ c (Proc.devRef .tc main_v3) :=
  W5_of_ne m ρ c main_v3 (by decide)
theorem W5_arg5 (c : Dev nD) : W5 m ρ c (Proc.devRef .tc main_arg5) = W4 m ρ c (Proc.devRef .tc main_arg5) :=
  W5_of_ne m ρ c main_arg5 (by decide)

/-! ## The carried buffers from the launch memory -/

/-- The edge rows at the first layer's aggregation. -/
theorem row0_at2 (c : Dev nD) : W2 m ρ c (Proc.devRef .tc main_v1) = edgeRow0 (m ((c : Thread nD τ).loc main_arg1)) :=
  (W2_v1 m ρ c).trans (W1_row0 m ρ c)
theorem row1_at2 (c : Dev nD) : W2 m ρ c (Proc.devRef .tc main_v3) = edgeRow1 (m ((c : Thread nD τ).loc main_arg1)) :=
  (W2_v3 m ρ c).trans (W1_row1 m ρ c)
/-- The first bias at the first layer's aggregation. -/
theorem bias1_at2 (c : Dev nD) : W2 m ρ c (Proc.devRef .tc main_arg3) = m ((c : Thread nD τ).loc main_arg3) :=
  (W2_arg3 m ρ c).trans (W1_arg3 m ρ c)
/-- The second weights at the second pallas_call's entry. -/
theorem weights2_at4 (c : Dev nD) : W4 m ρ c (Proc.devRef .tc main_arg4) = m ((c : Thread nD τ).loc main_arg4) :=
  (W4_arg4 m ρ c).trans ((W3_arg4 m ρ c).trans ((W2_arg4 m ρ c).trans (W1_arg4 m ρ c)))
/-- The edge rows and the second bias at the second layer's aggregation. -/
theorem row0_at5 (c : Dev nD) : W5 m ρ c (Proc.devRef .tc main_v1) = edgeRow0 (m ((c : Thread nD τ).loc main_arg1)) :=
  (W5_v1 m ρ c).trans ((W4_v1 m ρ c).trans ((W3_v1 m ρ c).trans (row0_at2 m ρ c)))
theorem row1_at5 (c : Dev nD) : W5 m ρ c (Proc.devRef .tc main_v3) = edgeRow1 (m ((c : Thread nD τ).loc main_arg1)) :=
  (W5_v3 m ρ c).trans ((W4_v3 m ρ c).trans ((W3_v3 m ρ c).trans (row1_at2 m ρ c)))
theorem bias2_at5 (c : Dev nD) : W5 m ρ c (Proc.devRef .tc main_arg5) = m ((c : Thread nD τ).loc main_arg5) :=
  (W5_arg5 m ρ c).trans ((W4_arg5 m ρ c).trans ((W3_arg5 m ρ c).trans ((W2_arg5 m ρ c).trans (W1_arg5 m ρ c))))

end Cert.KernelIdeal.Chain

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibPlainProduct.lean ====
/-
  The matrix product as ONE function of its two operands, and the two spellings a program gives it.

  `prod l r` is the `M × N` array whose entry `(p, q)` is `∑ k, l (p, k) · r (k, q)`, a sum over the shared axis of
  extent `K`, taken over the extended reals.  A `tpu.matmul` into the zero accumulator and the host's `dot_general`,
  each carrying the dimension numbers of a plain product (`IsPlain`), are both `prod` of their operands — whatever the
  operands' float formats, and for the host whatever its schedule key.  So a kernel that multiplies row blocks and a
  reference that multiplies the whole array meet at `prod`: row `p` of the product depends on row `p` of the left
  operand only.
-/
import proofs.«177057_j44976897524562_1_alg».proof.Proof.LibMatmulPlain

noncomputable section

namespace Idealize.ShloMosaic.MatmulPlain

open Idealize.ShloMosaic Idealize.ShloMosaic.ValueIdx
open scoped BigOperators

variable {M N K : Nat} {D : DotDims ⟨2, ![M, K]⟩ ⟨2, ![K, N]⟩ ⟨2, ![M, N]⟩}

/-- The product of an `M × K` and a `K × N` array: entry `j` is the sum over the shared axis of the products of row
    `j 0` of the left operand with column `j 1` of the right one. -/
def prod {φ₁ φ₂ : FTy} (l : FVec Ideal ⟨2, ![M, K]⟩ φ₁) (r : FVec Ideal ⟨2, ![K, N]⟩ φ₂) : FVec Ideal ⟨2, ![M, N]⟩ .f32 :=
  fun j => ∑ k : Fin K, l (ix2 (j 0) k) * r (ix2 k (j 1))

theorem prod_apply {φ₁ φ₂ : FTy} (l : FVec Ideal ⟨2, ![M, K]⟩ φ₁) (r : FVec Ideal ⟨2, ![K, N]⟩ φ₂) (p : Fin M) (q : Fin N) :
    prod l r (ix2 p q) = ∑ k : Fin K, l (ix2 p k) * r (ix2 k q) := rfl

/-- The host's `dot_general` with a plain product's dimension numbers, read at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply, ← Equiv.sum_comp h.contrEquiv.symm]
  refine Finset.sum_congr rfl fun k _ => ?_
  rw [h.lhsIdx_eq, h.rhsIdx_eq]

/-- A `tpu.matmul` into the zero accumulator is the product. -/
theorem matmul_zero_eq_prod (h : IsPlain D) {φ₁ φ₂ : FTy} (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = prod l r := by
  funext j
  obtain ⟨p, q, rfl⟩ : ∃ (p : Fin M) (q : Fin N), j = ix2 p q := ⟨j 0, j 1, eq_ix2 j⟩
  exact matmul_zero_apply h prec l r p q

/-- The host's `dot_general` is the product. -/
theorem dotGeneral_eq_prod (h : IsPlain D) {φ₁ φ₂ : FTy} (prec : Option ContractPrecision) (sched : HostSchedule)
    (l : FVec Ideal ⟨2, ![M, K]⟩ φ₁) (r : FVec Ideal ⟨2, ![K, N]⟩ φ₂) :
    FloatOps.dotGeneral D prec sched l r = prod l r := by
  funext j
  obtain ⟨p, q, rfl⟩ : ∃ (p : Fin M) (q : Fin N), j = ix2 p q := ⟨j 0, j 1, eq_ix2 j⟩
  exact dotGeneral_apply h prec sched l r p q

/-- Row `p` of the product is the product of row `p`: if two left operands agree on a row (here: a row of a block and
    the row of the whole array it was cut from), the products agree on that row. -/
theorem prod_row_congr {M' : Nat} {φ₁ φ₁' φ₂ : FTy} (l : FVec Ideal ⟨2, ![M, K]⟩ φ₁) (l' : FVec Ideal ⟨2, ![M', K]⟩ φ₁')
    (r : FVec Ideal ⟨2, ![K, N]⟩ φ₂) (p : Fin M) (p' : Fin M') (q : Fin N)
    (hrow : ∀ k : Fin K, l (ix2 p k) = l' (ix2 p' k)) :
    prod l r (ix2 p q) = prod l' r (ix2 p' q) := by
  rw [prod_apply, prod_apply]
  exact Finset.sum_congr rfl fun k _ => by rw [hrow k]

end Idealize.ShloMosaic.MatmulPlain

end
-- ==== Proof.LibProdEntries.lean ====
/-
  An entry of a matrix product depends on one row of the left operand and one column of the right one.

  If row `j 0` of `l` is row `j' 0` of `l'` and column `j 1` of `r` is column `j' 1` of `r'`, then entry `j` of
  `l · r` is entry `j'` of `l' · r'`: the two sums over the shared axis agree term by term.  This is how a product
  taken on a block of rows is read as a block of the product of the whole arrays.
-/
import proofs.«177057_j44976897524562_1_alg».proof.Proof.LibPlainProduct

noncomputable section

namespace Idealize.ShloMosaic.MatmulPlain

open Idealize.ShloMosaic Idealize.ShloMosaic.ValueIdx
open scoped BigOperators

/-- Entry `j` of `l · r` is entry `j'` of `l' · r'` when row `j 0` of `l` is row `j' 0` of `l'` and column `j 1` of `r` is
    column `j' 1` of `r'` (the operands may have different numbers of rows and of columns, and any float formats). -/
theorem prod_entry_congr {M M' K N N' : Nat} {φ₁ φ₁' φ₂ φ₂' : FTy}
    (l : FVec Ideal ⟨2, ![M, K]⟩ φ₁) (r : FVec Ideal ⟨2, ![K, N]⟩ φ₂)
    (l' : FVec Ideal ⟨2, ![M', K]⟩ φ₁') (r' : FVec Ideal ⟨2, ![K, N']⟩ φ₂')
    (j : (⟨2, ![M, N]⟩ : Shape).Idx) (j' : (⟨2, ![M', N']⟩ : Shape).Idx)
    (hl : ∀ k : Fin K, l (ix2 (j 0) k) = l' (ix2 (j' 0) k))
    (hr : ∀ k : Fin K, r (ix2 k (j 1)) = r' (ix2 k (j' 1))) :
    prod l r j = prod l' r' j' := by
  show ∑ k : Fin K, l (ix2 (j 0) k) * r (ix2 k (j 1)) = ∑ k : Fin K, l' (ix2 (j' 0) k) * r' (ix2 k (j' 1))
  exact Finset.sum_congr rfl fun k _ => by rw [hl k, hr k]

end Idealize.ShloMosaic.MatmulPlain

end
-- ==== Proof.Region0Value.lean ====
/-
  The first dense transform, read off the pipeline: after the ten grid points the output array is the product of the
  whole input array with the whole weight array.

  Grid point `t` stages rows `10000·t … 10000·t + 9999` of the 100000 × 128 input (all 128 columns), the whole
  128 × 64 weight array, and writes back rows `10000·t … 10000·t + 9999` of the 100000 × 64 output.  The body
  multiplies the staged row block by the weights into a zero accumulator (the change of float format before the
  product is the identity on the extended reals), so entry `(p, q)` of the block it writes is the sum over `k` of
  input `(10000·t + p, k)` times weight `(k, q)`: block `t` of the product of the whole arrays.  The ten blocks
  cover every row, so the array ends holding that product.
-/
import proofs.«177057_j44976897524562_1_alg».proof.Proof.Gen.KernelIdeal.Frame
import proofs.«177057_j44976897524562_1_alg».proof.Proof.LibProdEntries
import Idealize.ShloMosaic.Lib.Pipeline.Value
import Idealize.ShloMosaic.Lib.ValueIdx

set_option maxRecDepth 16384

noncomputable section

namespace Cert.KernelIdeal.Transform0

open Cert.KernelIdeal Cert.KernelIdeal.Gen
open Idealize.ShloMosaic Idealize.ShloMosaic.TcCoe Idealize.ShloMosaic.ValueIdx Idealize.ShloMosaic.MatmulPlain
open Idealize.SL.Sem
open Idealize.ShloMosaic.Pipeline (Dat)

variable (V : (c : Dev nD) → (b : Ref sig .tc) → Buf (Elt Ideal) ((c : Thread nD τ).loc b))

/-- The body's dimension numbers are those of a plain product. -/
theorem plain : IsPlain dot_S10000x128_S128x64_S10000x64_1_0_0_1_n_n := ⟨rfl, rfl, rfl, rfl, rfl, rfl⟩

theorem zeros : (![0, 0] : Fin 2 → Nat) = fun _ => 0 := funext fun a => by fin_cases a <;> rfl

/-- What the body stores is the product of the two blocks it loaded. -/
theorem payload_eq (x0 : FVec Ideal S10000x128 .f32) (x1 : FVec Ideal S128x64 .f32) :
    k0_pay1 (F := Ideal) x0 x1 = prod x0 x1 :=
  matmul_zero_eq_prod plain none x0 x1

/-- The printed index maps over the grid: the input's and the output's row blocks move together with the point,
    every column block and the weights' block stay at zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole arrays' product, from the contents the region is entered with. -/
abbrev whole (c : Dev nD) : FVec Ideal S100000x64 .f32 :=
  prod (M := 100000) (K := 128) (N := 64) (φ₁ := .f32) (φ₂ := .f32) (V c main_arg0) (V c main_arg2)

/-- What point `t` writes back is block `t` of the whole arrays' product. -/
theorem flushed_eq (c : Dev nD) (t : Fin cfg0.N) :
    (dat0 (F := Ideal) V c).flushed 2 t = ((cfg0.win 2).blk t).view.read (Elt Ideal) (whole V c) := by
  show (cfg0.win 2).cut (grid0.coords t) ((dat0 V c).after 2 t) = _
  rw [after0_2]
  unfold out0_2
  rw [View.canon_unit_zero zeros]
  simp only [View.ld_unit_zero (S := S10000x128) zeros, View.ld_unit_zero (S := S128x64) zeros]
  rw [payload_eq]
  obtain ⟨e0, e1, e2, e3, e4, e5⟩ := index_maps t
  funext j
  show prod (iblk0 V c 0 t) (iblk0 V c 1 t) j = whole V c (((cfg0.win 2).blk t).view.emb j)
  refine prod_entry_congr (M := 10000) (M' := 100000) (K := 128) (N := 64) (N' := 64) (φ₁ := .f32) (φ₁' := .f32) (φ₂ := .f32) (φ₂' := .f32)
    (iblk0 V c 0 t) (iblk0 V c 1 t) (V c main_arg0) (V c main_arg2) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Row `r` of the output lies in the block of point `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < cfg0.N := by show (i 0).val / 10000 < grid0.N; rw [hN]; omega
  obtain ⟨e0, e1, e2, e3, e4, e5⟩ := index_maps ⟨(i 0).val / 10000, ht⟩
  refine ⟨⟨(i 0).val / 10000, ht⟩, flush0_2 _, ?_⟩
  rw [mem_block]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- After the ten points the output array is the whole arrays' product. -/
theorem final (c : Dev nD) : (dat0 (F := Ideal) V c).arrAt 2 cfg0.N = whole V c :=
  (dat0 V c).arrAt_eq_of_cover 2 (whole V c) (fun t _ => flushed_eq V c t) (cover)

end Cert.KernelIdeal.Transform0

end
-- ==== Proof.Region1Value.lean ====
/-
  The second dense transform, read off the pipeline: after the ten grid points the output array is the product of the
  whole hidden-feature array with the whole second weight array.

  Grid point `t` stages rows `10000·t … 10000·t + 9999` of the 100000 × 64 hidden features (all 64 columns), the whole
  64 × 32 weight array, and writes back rows `10000·t … 10000·t + 9999` of the 100000 × 32 output.  The body
  multiplies the staged row block (re-cast to its own shape, which changes nothing) by the weights into a zero
  accumulator, so entry `(p, q)` of the block it writes is the sum over `k` of feature `(10000·t + p, k)` times weight
  `(k, q)`: block `t` of the product of the whole arrays.  The ten blocks cover every row.
-/
import proofs.«177057_j44976897524562_1_alg».proof.Proof.Gen.KernelIdeal.Frame
import proofs.«177057_j44976897524562_1_alg».proof.Proof.LibProdEntries
import Idealize.ShloMosaic.Lib.Pipeline.Value
import Idealize.ShloMosaic.Lib.ValueIdx

set_option maxRecDepth 16384

noncomputable section

namespace Cert.KernelIdeal.Transform1

open Cert.KernelIdeal Cert.KernelIdeal.Gen
open Idealize.ShloMosaic Idealize.ShloMosaic.TcCoe Idealize.ShloMosaic.ValueIdx Idealize.ShloMosaic.MatmulPlain
open Idealize.SL.Sem
open Idealize.ShloMosaic.Pipeline (Dat)

variable (V : (c : Dev nD) → (b : Ref sig .tc) → Buf (Elt Ideal) ((c : Thread nD τ).loc b))

/-- The body's dimension numbers are those of a plain product. -/
theorem plain : IsPlain dot_S10000x64_S64x32_S10000x32_1_0_0_1_n_n := ⟨rfl, rfl, rfl, rfl, rfl, rfl⟩

theorem zeros : (![0, 0] : Fin 2 → Nat) = fun _ => 0 := funext fun a => by fin_cases a <;> rfl

/-- What the body stores is the product of the two blocks it loaded. -/
theorem payload_eq (x0 : FVec Ideal S10000x64 .f32) (x1 : FVec Ideal S64x32 .f32) :
    k1_pay1 (F := Ideal) x0 x1 = prod x0 x1 := by
  refine (matmul_zero_eq_prod plain none _ _).trans ?_
  show prod (shapeCast S10000x64 x0 shapeCasts_S10000x64_S10000x64) x1 = prod x0 x1
  rw [shapeCast_self]

/-- The printed index maps over the grid: the input's and the output's row blocks move together with the point,
    every column block and the weights' block stay at zero. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole arrays' product, from the contents the region is entered with. -/
abbrev whole (c : Dev nD) : FVec Ideal S100000x32 .f32 :=
  prod (M := 100000) (K := 64) (N := 32) (φ₁ := .f32) (φ₂ := .f32) (V c main_v49) (V c main_arg4)

/-- What point `t` writes back is block `t` of the whole arrays' product. -/
theorem flushed_eq (c : Dev nD) (t : Fin cfg1.N) :
    (dat1 (F := Ideal) V c).flushed 2 t = ((cfg1.win 2).blk t).view.read (Elt Ideal) (whole V c) := by
  show (cfg1.win 2).cut (grid1.coords t) ((dat1 V c).after 2 t) = _
  rw [after1_2]
  unfold out1_2
  rw [View.canon_unit_zero zeros]
  simp only [View.ld_unit_zero (S := S10000x64) zeros, View.ld_unit_zero (S := S64x32) zeros]
  rw [payload_eq]
  obtain ⟨e0, e1, e2, e3, e4, e5⟩ := index_maps t
  funext j
  show prod (iblk1 V c 0 t) (iblk1 V c 1 t) j = whole V c (((cfg1.win 2).blk t).view.emb j)
  refine prod_entry_congr (M := 10000) (M' := 100000) (K := 64) (N := 32) (N' := 32) (φ₁ := .f32) (φ₁' := .f32) (φ₂ := .f32) (φ₂' := .f32)
    (iblk1 V c 0 t) (iblk1 V c 1 t) (V c main_v49) (V c main_arg4) j (((cfg1.win 2).blk t).view.emb j) (fun k => ?_) (fun k => ?_)
  · show V c main_v49 (((cfg1.win 0).blk t).view.emb (ix2 (j 0) k)) = V c main_v49 (ix2 ((((cfg1.win 2).blk t).view.emb j) 0) k)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  · show V c main_arg4 (((cfg1.win 1).blk t).view.emb (ix2 k (j 1))) = V c main_arg4 (ix2 k ((((cfg1.win 2).blk t).view.emb j) 1))
    refine congrArg _ (funext fun a => Fin.ext ?_)
    match a with
    | ⟨0, _⟩ => show win1_1.index t (0 : Fin 2) * 64 + 1 * k.val = k.val; omega
    | ⟨1, _⟩ => show win1_1.index t (1 : Fin 2) * 32 + 1 * (j 1).val = win1_2.index t (1 : Fin 2) * 32 + 1 * (j 1).val; omega

/-- An index of the output array is in point `t`'s block iff each coordinate is in the block's range on its axis. -/
theorem mem_block (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v50).slice (win1_2.rect t)).set ↔ _
  rw [View.set_slice_whole, Rect.mem_set_unit]
  exact Iff.rfl

/-- Row `r` of the output lies in the block of point `r / 10000`. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : grid1.N = 10 := N_1
  have ht : (i 0).val / 10000 < cfg1.N := by show (i 0).val / 10000 < grid1.N; rw [hN]; omega
  obtain ⟨e0, e1, e2, e3, e4, e5⟩ := index_maps ⟨(i 0).val / 10000, ht⟩
  refine ⟨⟨(i 0).val / 10000, ht⟩, flush1_2 _, ?_⟩
  rw [mem_block]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 32 ≤ (i 1).val ∧ (i 1).val < win1_2.index ⟨(i 0).val / 10000, ht⟩ (1 : Fin 2) * 32 + 32
    rw [e5]; omega

/-- After the ten points the output array is the whole arrays' product. -/
theorem final (c : Dev nD) : (dat1 (F := Ideal) V c).arrAt 2 cfg1.N = whole V c :=
  (dat1 V c).arrAt_eq_of_cover 2 (whole V c) (fun t _ => flushed_eq V c t) (cover)

end Cert.KernelIdeal.Transform1

end
-- ==== Proof.Network.lean ====
/-
  The two-layer graph convolution as ONE function of the six argument arrays, over the extended reals.

  `x` (100000 × 128 node features), `e` (the 2 × 1600000 edge list), `w1` (128 × 64), `b1` (64), `w2` (64 × 32),
  `b2` (32).  The first layer multiplies `x` by `w1` and aggregates over the edges; `max(·, 0)`; the second layer
  multiplies by `w2` and aggregates again.  Both dense transforms are the plain matrix product `prod`: entry
  `(p, q)` is the sum over the shared axis of the products of row `p` with column `q`.
-/
import proofs.«177057_j44976897524562_1_alg».proof.Proof.GcnSpec
import proofs.«177057_j44976897524562_1_alg».proof.Proof.LibPlainProduct

noncomputable section

namespace Cert.Gcn

open Idealize.ShloMosaic Idealize.ShloMosaic.MatmulPlain Cert.KernelIdeal

variable [Facts]

def network (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x32, .f32⟩ : BufTy).Contents (Elt Ideal)) (b2 : (⟨S32, .f32⟩ : BufTy).Contents (Elt Ideal)) :
    (⟨S100000x32, .f32⟩ : BufTy).Contents (Elt Ideal) :=
  layer32
    (prod (M := 100000) (K := 64) (N := 32) (φ₁ := .f32) (φ₂ := .f32)
      (relu64 (layer64 (prod (M := 100000) (K := 128) (N := 64) (φ₁ := .f32) (φ₂ := .f32) x w1) (edgeRow0 e) (edgeRow1 e) b1))
      w2)
    (edgeRow0 e) (edgeRow1 e) b2

end Cert.Gcn

end
-- ==== Proof.KernelValue.lean ====
/-
  What the idealized kernel's result buffer holds after the run: the network of the six argument arrays.

  Following the buffers through @main: the first pallas_call leaves the product of the node features with the first
  weights (its ten row blocks cover the array); the host aggregates it over the edges, adds the bias and takes
  `max(·, 0)`; the second pallas_call leaves the product of that with the second weights; the host aggregates again and
  adds the second bias.  The edge rows are cut once, before the first pallas_call, and carried unchanged to both
  aggregations; the weights and biases are the argument arrays as launched.
-/
import proofs.«177057_j44976897524562_1_alg».proof.Proof.HostChain
import proofs.«177057_j44976897524562_1_alg».proof.Proof.Region0Value
import proofs.«177057_j44976897524562_1_alg».proof.Proof.Region1Value
import proofs.«177057_j44976897524562_1_alg».proof.Proof.Network

set_option maxRecDepth 16384

noncomputable section

namespace Cert.KernelIdeal.Whole

open Cert.KernelIdeal Cert.KernelIdeal.Gen Cert.KernelIdeal.Chain Cert.Gcn
open Idealize.ShloMosaic Idealize.ShloMosaic.TcCoe Idealize.SL.Sem Idealize.ShloMosaic.StableHlo Idealize.ShloMosaic.MatmulPlain

variable (m : (ℓ : Loc nD τ sig) → Buf (Elt Ideal) ℓ) (ρ : Dev nD → PrngReg)

/-- The first transform's output at the first pallas_call's exit. -/
theorem transform0 (c : Dev nD) :
    W2 m ρ c (Proc.devRef .tc main_v4)
      = prod (M := 100000) (K := 128) (N := 64) (φ₁ := .f32) (φ₂ := .f32) (m ((c : Thread nD τ).loc main_arg0))
          (m ((c : Thread nD τ).loc main_arg2)) := by
  refine (W2_arr m ρ c 2).trans ((Transform0.final (V1 m ρ) c).trans ?_)
  show prod (M := 100000) (K := 128) (N := 64) (φ₁ := .f32) (φ₂ := .f32) (W1 m ρ c (Proc.devRef .tc main_arg0))
      (W1 m ρ c (Proc.devRef .tc main_arg2)) = _
  rw [W1_arg0, W1_arg2]

/-- The hidden features at the second pallas_call's entry. -/
theorem hidden (c : Dev nD) :
    W4 m ρ c (Proc.devRef .tc main_v49)
      = relu64 (layer64 (prod (M := 100000) (K := 128) (N := 64) (φ₁ := .f32) (φ₂ := .f32) (m ((c : Thread nD τ).loc main_arg0))
            (m ((c : Thread nD τ).loc main_arg2)))
          (edgeRow0 (m ((c : Thread nD τ).loc main_arg1))) (edgeRow1 (m ((c : Thread nD τ).loc main_arg1)))
          (m ((c : Thread nD τ).loc main_arg3))) := by
  refine (stretch1_relu (W3 m ρ c)).trans (congrArg relu64 ?_)
  refine (stretch1 (W2 m ρ c)).trans ?_
  rw [transform0, row0_at2, row1_at2, bias1_at2]

/-- The second transform's output at the second pallas_call's exit. -/
theorem transform1 (c : Dev nD) :
    W5 m ρ c (Proc.devRef .tc main_v50)
      = prod (M := 100000) (K := 64) (N := 32) (φ₁ := .f32) (φ₂ := .f32)
          (relu64 (layer64 (prod (M := 100000) (K := 128) (N := 64) (φ₁ := .f32) (φ₂ := .f32) (m ((c : Thread nD τ).loc main_arg0))
              (m ((c : Thread nD τ).loc main_arg2)))
            (edgeRow0 (m ((c : Thread nD τ).loc main_arg1))) (edgeRow1 (m ((c : Thread nD τ).loc main_arg1)))
            (m ((c : Thread nD τ).loc main_arg3))))
          (m ((c : Thread nD τ).loc main_arg4)) := by
  refine (W5_arr m ρ c 2).trans ((Transform1.final (V4 m ρ) c).trans ?_)
  show prod (M := 100000) (K := 64) (N := 32) (φ₁ := .f32) (φ₂ := .f32) (W4 m ρ c (Proc.devRef .tc main_v49))
      (W4 m ρ c (Proc.devRef .tc main_arg4)) = _
  rw [hidden, weights2_at4]

/-- The result buffer after the run. -/
theorem result (c : Dev nD) :
    W6 m ρ c (Proc.devRef .tc main_v94)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (stretch2 (W5 m ρ c)).trans ?_
  rw [transform1, row0_at5, row1_at5, bias2_at5]
  rfl

end Cert.KernelIdeal.Whole

end
-- ==== Proof.RefValue.lean ====
/-
  What the idealized reference computes: the same network of the six argument arrays.

  Its @main is the host operations of the kernel's program with a `dot_general` in the place of each pallas_call, so its
  result's term is the second layer's aggregation of a `dot_general` of `max(·, 0)` of the first layer's aggregation of
  a `dot_general`; and over the extended reals a `dot_general` with a plain product's dimension numbers is that product.
-/
import proofs.«177057_j44976897524562_1_alg».proof.Proof.Gen.ReferenceIdeal.Run
import proofs.«177057_j44976897524562_1_alg».proof.Proof.Gen.KernelIdeal
import proofs.«177057_j44976897524562_1_alg».proof.Proof.Network

set_option maxRecDepth 16384

noncomputable section

namespace Cert.ReferenceIdeal.Whole

open Cert.Gcn
open Idealize.ShloMosaic Idealize.ShloMosaic.TcCoe Idealize.SL.Sem Idealize.ShloMosaic.MatmulPlain
open Cert.ReferenceIdeal

theorem plain0 : IsPlain dot_S100000x128_S128x64_S100000x64_1_0_0_1_n_n := ⟨rfl, rfl, rfl, rfl, rfl, rfl⟩
theorem plain1 : IsPlain dot_S100000x64_S64x32_S100000x32_1_0_0_1_n_n := ⟨rfl, rfl, rfl, rfl, rfl, rfl⟩

set_option maxHeartbeats 40000000 in
/-- The result's term, at any float instance: the layers' functions around the two `dot_general`s. -/
theorem term_eq {F : FTy → Type} [FloatOps F] (m : (ℓ : Loc nD τ sig) → Buf (Elt F) ℓ) (c : Dev nD) :
    Value.res_main_v94 (F := F) m c
      = layer32 (Host.dotGeneral dot_S100000x64_S64x32_S100000x32_1_0_0_1_n_n none
          (relu64 (layer64 (Host.dotGeneral dot_S100000x128_S128x64_S100000x64_1_0_0_1_n_n none
              (m ((c.tc : Thread nD τ).loc main_arg0)) (m ((c.tc : Thread nD τ).loc main_arg2)))
            (edgeRow0 (m ((c.tc : Thread nD τ).loc main_arg1))) (edgeRow1 (m ((c.tc : Thread nD τ).loc main_arg1)))
            (m ((c.tc : Thread nD τ).loc main_arg3))))
          (m ((c.tc : Thread nD τ).loc main_arg4)))
        (edgeRow0 (m ((c.tc : Thread nD τ).loc main_arg1))) (edgeRow1 (m ((c.tc : Thread nD τ).loc main_arg1)))
        (m ((c.tc : Thread nD τ).loc main_arg5)) := by
  unfold Value.res_main_v94
  rfl

/-- Over the extended reals the reference's result is the network of its argument arrays. -/
theorem result (m : (ℓ : Loc nD τ sig) → Buf (Elt Ideal) ℓ) (c : Dev nD) :
    Value.res_main_v94 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  have first : ∀ (l : FVec Ideal S100000x128 .f32) (r : FVec Ideal S128x64 .f32),
      Host.dotGeneral dot_S100000x128_S128x64_S100000x64_1_0_0_1_n_n none l r = prod l r :=
    fun l r => dotGeneral_eq_prod plain0 none .single l r
  have second : ∀ (l : FVec Ideal S100000x64 .f32) (r : FVec Ideal S64x32 .f32),
      Host.dotGeneral dot_S100000x64_S64x32_S100000x32_1_0_0_1_n_n none l r = prod l r :=
    fun l r => dotGeneral_eq_prod plain1 none .single l r
  rw [term_eq]
  unfold network
  rw [second, first]

end Cert.ReferenceIdeal.Whole

end
-- ==== Proof.lean ====
/-
  Two graph-convolution layers on 100,000 nodes and 1,600,000 edges: the kernel's program against its reference.

  The two programs are the same host operations — the edge list cut into its rows, the self loops appended, the degree
  by a scatter-add of ones, its reciprocal square root gathered at both ends of every edge, the transformed features
  gathered at the sources, scaled and scatter-added at the targets, the bias added; `max(·, 0)` between the layers —
  around the two dense transforms, which the kernel's program runs as pallas_calls over ten blocks of 10,000 rows and the
  reference as one `dot_general` each.  Over the extended reals a change of float format is the identity, so each
  pallas_call multiplies row blocks of the array by the whole weights into a zero accumulator; row `p` of a product
  depends on row `p` of the left operand only, and the ten blocks cover the array, so it leaves the whole arrays' product,
  which is what a `dot_general` with a plain product's dimension numbers is.  Both results are therefore ONE function
  (`Cert.Gcn.network`) of the six argument arrays.  No law used here needs the inputs to be finite: only that the two
  sums over the shared axis are the same sum.

  The three frames are the generated ones (the reference's is its generated run with the result dropped); the ideal pass
  rewrote nothing, so `preserves` is `True`.
-/
import proofs.«177057_j44976897524562_1_alg».proof.Defs
import proofs.«177057_j44976897524562_1_alg».proof.Proof.Gen.Kernel
import proofs.«177057_j44976897524562_1_alg».proof.Proof.Gen.Kernel.Frame
import proofs.«177057_j44976897524562_1_alg».proof.Proof.Gen.KernelIdeal
import proofs.«177057_j44976897524562_1_alg».proof.Proof.Gen.KernelIdeal.Frame
import proofs.«177057_j44976897524562_1_alg».proof.Proof.Gen.ReferenceIdeal
import proofs.«177057_j44976897524562_1_alg».proof.Proof.Gen.ReferenceIdeal.Run
import proofs.«177057_j44976897524562_1_alg».proof.Proof.Gen.Pre_finite_inputs
import proofs.«177057_j44976897524562_1_alg».proof.Proof.KernelRun
import proofs.«177057_j44976897524562_1_alg».proof.Proof.KernelValue
import proofs.«177057_j44976897524562_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six argument arrays both programs end with the network of those arrays in their
    result buffer. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Whole.result, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
